-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3x256 : S_.BroadcastsInDim S100000x3x256 (![] : Fin 0 → Fin S100000x3x256.rank)
  reducesTo_S100000x3x256_S_d0_1_2 : S100000x3x256.ReducesTo [0, 1, 2] S_
  bcast_S_S100000x3x3 : S_.BroadcastsInDim S100000x3x3 (![] : Fin 0 → Fin S100000x3x3.rank)
  reducesTo_S100000x3x3_S_d0_1_2 : S100000x3x3.ReducesTo [0, 1, 2] S_
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S256x768 .f32) (main_arg7 : FVec F S768 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x768 .f32 := Host.absf main_arg6
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S100000x3x256 .f32) (main_arg2 : FVec F S100000x3x3 .f32) (main_arg3 : FVec F S256x512 .f32) (main_arg4 : FVec F S512x256 .f32) (main_arg5 : FVec F S256 .f32) (main_arg6 : FVec F S256x768 .f32) (main_arg7 : FVec F S768 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x3x256 .f32 := Host.absf main_arg1
  let main_cst_0 : FVec F S_ .f32 := constant S_ .f32 0x7F800000#32
  let main_v5 : FVec F S100000x3x256 .f32 := broadcastInDim S100000x3x256 ![] bcast_S_S100000x3x256 main_cst_0
  let main_v6 : IVec S100000x3x256 1 := cmpf .olt main_v4 main_v5
  let main_c_1 : IVec S_ 1 := constantI S_ 1 1#1
  let main_v7 : IVec S_ 1 := (fun x v => Host.reduce IntOp.andi x v reducesTo_S100000x3x256_S_d0_1_2 h_S_) main_v6 main_c_1
  let main_v8 : IVec S_ 1 := andi main_v3 main_v7
  let main_v9 : FVec F S100000x3x3 .f32 := Host.absf main_arg2
  let main_cst_2 : FVec F S_ .f32 := constant S_ .f32 0x7F800000#32
  let main_v10 : FVec F S100000x3x3 .f32 := broadcastInDim S100000x3x3 ![] bcast_S_S100000x3x3 main_cst_2
  let main_v11 : IVec S100000x3x3 1 := cmpf .olt main_v9 main_v10
  let main_c_3 : IVec S_ 1 := constantI S_ 1 1#1
  let main_v12 : IVec S_ 1 := (fun x v => Host.reduce IntOp.andi x v reducesTo_S100000x3x3_S_d0_1_2 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_v13 main_v16
-- ==== Kernel.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S100000x768 : Shape := ⟨2, ![100000, 768]⟩
abbrev S1000x256 : Shape := ⟨2, ![1000, 256]⟩
abbrev S1000x768 : Shape := ⟨2, ![1000, 768]⟩
abbrev S1000x512 : Shape := ⟨2, ![1000, 512]⟩
abbrev S256x256 : Shape := ⟨2, ![256, 256]⟩
abbrev S1x256 : Shape := ⟨2, ![1, 256]⟩
abbrev S1x768 : Shape := ⟨2, ![1, 768]⟩

abbrev nBuf : Space → Nat
  | .hbm => 12
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S100000x3x3, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S100000x768, .f32⟩
  | .hbm, ⟨9, _⟩ => ⟨S100000x256, .f32⟩
  | .hbm, ⟨10, _⟩ => ⟨S100000x768, .f32⟩
  | .hbm, ⟨11, _⟩ => ⟨S100000x3x256, .f32⟩
  | .local _ .vmem, ⟨0, _⟩ => ⟨S1000x256, .f32⟩
  | .local _ .vmem, ⟨1, _⟩ => ⟨S1000x256, .f32⟩
  | .local _ .vmem, ⟨2, _⟩ => ⟨S1000x768, .f32⟩
  | .local _ .vmem, ⟨3, _⟩ => ⟨S1000x768, .f32⟩
  | .local _ .vmem, ⟨4, _⟩ => ⟨S256x512, .f32⟩
  | .local _ .vmem, ⟨5, _⟩ => ⟨S512x256, .f32⟩
  | .local _ .vmem, ⟨6, _⟩ => ⟨S256, .f32⟩
  | .local _ .vmem, ⟨7, _⟩ => ⟨S256x768, .f32⟩
  | .local _ .vmem, ⟨8, _⟩ => ⟨S768, .f32⟩
  | .local _ .vmem, ⟨9, _⟩ => ⟨S1000x256, .f32⟩
  | .local _ .vmem, ⟨10, _⟩ => ⟨S1000x256, .f32⟩
  | .local _ .vmem, ⟨11, _⟩ => ⟨S1000x768, .f32⟩
  | .local _ .vmem, ⟨12, _⟩ => ⟨S1000x768, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S100000x3x256_S100000x768 : S100000x3x256.ShapeCasts S100000x768
  inb_S1000x256_S1000x256_0_0 : ∀ a, (![0, 0] : Fin 2 → Nat) a + S1000x256.size a ≤ S1000x256.size a
  h_S1000x256 : 0 < S1000x256.numel
  inb_S1000x768_S1000x256_0_0 : ∀ a, (![0, 0] : Fin 2 → Nat) a + S1000x256.size a ≤ S1000x768.size a
  shapeCasts_S1000x256_S1000x256 : S1000x256.ShapeCasts S1000x256
  inb_S1000x768_S1000x256_0_256 : ∀ a, (![0, 256] : Fin 2 → Nat) a + S1000x256.size a ≤ S1000x768.size a
  inb_S1000x768_S1000x256_0_512 : ∀ a, (![0, 512] : Fin 2 → Nat) a + S1000x256.size a ≤ S1000x768.size a
  inb_S256x512_S256x512_0_0 : ∀ a, (![0, 0] : Fin 2 → Nat) a + S256x512.size a ≤ S256x512.size a
  h_S256x512 : 0 < S256x512.numel
  slices_S1000x512_o0_0_S1000x256 : S1000x512.Slices ![0, 0] S1000x256
  slices_S1000x512_o0_256_S1000x256 : S1000x512.Slices ![0, 256] S1000x256
  inb_S512x256_S512x256_0_0 : ∀ a, (![0, 0] : Fin 2 → Nat) a + S512x256.size a ≤ S512x256.size a
  h_S512x256 : 0 < S512x256.numel
  slices_S512x256_o0_0_S256x256 : S512x256.Slices ![0, 0] S256x256
  slices_S512x256_o256_0_S256x256 : S512x256.Slices ![256, 0] S256x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x768_S256x768_0_0 : ∀ a, (![0, 0] : Fin 2 → Nat) a + S256x768.size a ≤ S256x768.size a
  h_S256x768 : 0 < S256x768.numel
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  shapeCasts_S100000x768_S100000x3x256 : S100000x768.ShapeCasts S100000x3x256
  dot_S1000x256_S256x512_S1000x512_1_0_0_1_n_n_wf : DotDims.WF S1000x256 S256x512 S1000x512 [1] [0] [0] [1] [] []
  dot_S1000x256_S256x256_S1000x256_1_0_0_1_n_n_wf : DotDims.WF S1000x256 S256x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S100000x768.size a
  hwx0_1 : ∀ i : grid0.Coords, EltTy.bits .f32 = 32 ∨ (Rect.block (s := S100000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S100000x256.size a
  hwx0_7 : ∀ i : grid0.Coords, EltTy.bits .f32 = 32 ∨ (Rect.block (s := S100000x256) S1000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x768.size a ≤ S100000x768.size a
  hwx0_8 : ∀ i : grid0.Coords, EltTy.bits .f32 = 32 ∨ (Rect.block (s := S100000x768) S1000x768.size (cc0_transform_8 i) (hinb0_8 i)).WholeWords (EltTy.packing .f32)

variable [Facts₀]

def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1000x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x3x256 : Shape := ⟨3, ![100000, 3, 256]⟩
abbrev S100000x3x3 : Shape := ⟨3, ![100000, 3, 3]⟩
abbrev S256x512 : Shape := ⟨2, ![256, 512]⟩
abbrev S512x256 : Shape := ⟨2, ![512, 256]⟩
abbrev S256 : Shape := ⟨1, ![256]⟩
abbrev S256x768 : Shape := ⟨2, ![256, 768]⟩
abbrev S768 : Shape := ⟨1, ![768]⟩
abbrev S100000x3x512 : Shape := ⟨3, ![100000, 3, 512]⟩
abbrev S_ : Shape := ⟨0, ![]⟩
abbrev S100000x512 : Shape := ⟨2, ![100000, 512]⟩
abbrev S1x256 : Shape := ⟨2, ![1, 256]⟩
abbrev S100000x768 : Shape := ⟨2, ![100000, 768]⟩
abbrev S1x768 : Shape := ⟨2, ![1, 768]⟩
abbrev S100000x1x256 : Shape := ⟨3, ![100000, 1, 256]⟩

abbrev nBuf : Space → Nat
  | .hbm => 50
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S100000x3x3, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S100000x3x512, .f32⟩
  | .hbm, ⟨9, _⟩ => ⟨S100000x3x256, .f32⟩
  | .hbm, ⟨10, _⟩ => ⟨S100000x3x256, .f32⟩
  | .hbm, ⟨11, _⟩ => ⟨S100000x3x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x3x256, .f32⟩
  | .hbm, ⟨16, _⟩ => ⟨S_, .f32⟩
  | .hbm, ⟨17, _⟩ => ⟨S100000x256, .f32⟩
  | .hbm, ⟨18, _⟩ => ⟨S_, .f32⟩
  | .hbm, ⟨19, _⟩ => ⟨S100000x256, .f32⟩
  | .hbm, ⟨20, _⟩ => ⟨S100000x256, .f32⟩
  | .hbm, ⟨21, _⟩ => ⟨S100000x512, .f32⟩
  | .hbm, ⟨22, _⟩ => ⟨S100000x256, .f32⟩
  | .hbm, ⟨23, _⟩ => ⟨S1x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x768, .f32⟩
  | .hbm, ⟨36, _⟩ => ⟨S1x768, .f32⟩
  | .hbm, ⟨37, _⟩ => ⟨S100000x768, .f32⟩
  | .hbm, ⟨38, _⟩ => ⟨S100000x768, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S100000x1x256, .f32⟩
  | .hbm, ⟨48, _⟩ => ⟨S100000x3x256, .f32⟩
  | .hbm, ⟨49, _⟩ => ⟨S100000x3x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  slices_S100000x3x512_S100000x3x256_0_0_0 : S100000x3x512.Slices ![0, 0, 0] S100000x3x256
  slices_S100000x3x512_S100000x3x256_0_0_256 : S100000x3x512.Slices ![0, 0, 256] S100000x3x256
  reducesTo_S100000x3x256_S100000x256_d1 : S100000x3x256.ReducesTo [1] S100000x256
  h_S_ : 0 < S_.numel
  bcast_S_S100000x256 : S_.BroadcastsInDim S100000x256 (![] : Fin 0 → Fin S100000x256.rank)
  concatenates_S100000x256_S100000x256_S100000x512_d1 : Shape.Concatenates [S100000x256, S100000x256] S100000x512 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  bcast_S100000x256_S100000x1x256_0_2 : S100000x256.BroadcastsInDim S100000x1x256 (![0, 2] : Fin 2 → Fin S100000x1x256.rank)
  bcast_S100000x1x256_S100000x3x256_0_1_2 : S100000x1x256.BroadcastsInDim S100000x3x256 (![0, 1, 2] : Fin 3 → Fin S100000x3x256.rank)
  dot_S100000x3x256_S256x512_S100000x3x512_2_0_01_1_n_n_wf : DotDims.WF S100000x3x256 S256x512 S100000x3x512 [2] [0] [0, 1] [1] [] []
  dot_S100000x512_S512x256_S100000x256_1_0_0_1_n_n_wf : DotDims.WF S100000x512 S512x256 S100000x256 [1] [0] [0] [1] [] []
  dot_S100000x256_S256x768_S100000x768_1_0_0_1_n_n_wf : DotDims.WF S100000x256 S256x768 S100000x768 [1] [0] [0] [1] [] []

variable [Facts₀]

def dot_S100000x3x256_S256x512_S100000x3x512_2_0_01_1_n_n : DotDims S100000x3x256 S256x512 S100000x3x512 where
  lhsContracting := [2]
  rhsContracting := [0]
  lhsNonContracting := [0, 1]
  rhsNonContracting := [1]
  lhsBatch := []
  rhsBatch := []
  wf := dot_S100000x3x256_S256x512_S100000x3x512_2_0_01_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x768_S100000x768_1_0_0_1_n_n : DotDims S100000x256 S256x768 S100000x768 where
  lhsContracting := [1]
  rhsContracting := [0]
  lhsNonContracting := [0]
  rhsNonContracting := [1]
  lhsBatch := []
  rhsBatch := []
  wf := dot_S100000x256_S256x768_S100000x768_1_0_0_1_n_n_wf

class Facts : Prop extends Facts₀ where

variable [Facts]
-- ==== Proof.EquiSpec.lean ====
/-
  One row of the update, on the extended reals.

  A row carries a feature vector x (256 entries) and three spatial components v 0, v 1, v 2 (256 entries each).
  Each component is projected by one 256 × 512 table into 512 entries; the first 256 of them (lo) feed a norm
  over the three components and one factor of a dot product over them, the last 256 (hi) the other factor and the
  factor of the vector output. The norm is appended to x, the 512 entries go through a 512 × 256 layer with a bias,
  x ↦ x · logistic x, and a 256 × 768 layer with a bias; the first two thirds of its output and the scaled dot
  product add up to the scalar output, the last third multiplies the hi half of each projected component.

  The 512-term sum of the first layer splits into the 256 terms that read x and the 256 that read the norm
  (sum_lo_hi); a sum over three components from zero is the left-nested sum of its three terms (zero_add_sum_three).
  Both are rearrangements of sums in a commutative monoid: no entry needs to be finite.
-/
import Idealize.ShloMosaic.PureOps.Ideal
import Idealize.ShloMosaic.PureOps.Ideal.Laws
import Idealize.ShloMosaic.Lib.ValueIdx

noncomputable section

open scoped BigOperators

namespace Cert.Equi

open Idealize.ShloMosaic Idealize.ShloMosaic.ValueIdx

/-- Entry h of the first half of a 512-entry row. -/
def lo (h : Fin 256) : Fin 512 := ⟨h.val, by have := h.isLt; omega⟩
/-- Entry h of the second half of a 512-entry row. -/
def hi (h : Fin 256) : Fin 512 := ⟨256 + h.val, by have := h.isLt; omega⟩
/-- Entry h of third c of a 768-entry row. -/
def third (c : Fin 3) (h : Fin 256) : Fin 768 := ⟨c.val * 256 + h.val, by have := c.isLt; have := h.isLt; omega⟩

@[simp] theorem lo_val (h : Fin 256) : (lo h).val = h.val := rfl
@[simp] theorem hi_val (h : Fin 256) : (hi h).val = 256 + h.val := rfl
@[simp] theorem third_val (c : Fin 3) (h : Fin 256) : (third c h).val = c.val * 256 + h.val := rfl

/-- Which third of a 768-entry row an entry lies in. -/
def thirdOf (q : Fin 768) : Fin 3 := ⟨q.val / 256, by have := q.isLt; omega⟩
/-- Its place within that third. -/
def within (q : Fin 768) : Fin 256 := ⟨q.val % 256, by omega⟩

theorem thirdOf_third (c : Fin 3) (h : Fin 256) : thirdOf (third c h) = c :=
  Fin.ext (by show (c.val * 256 + h.val) / 256 = c.val; have := h.isLt; omega)
theorem within_third (c : Fin 3) (h : Fin 256) : within (third c h) = h :=
  Fin.ext (by show (c.val * 256 + h.val) % 256 = h.val; have := h.isLt; omega)
theorem third_thirdOf_within (q : Fin 768) : third (thirdOf q) (within q) = q :=
  Fin.ext (by show q.val / 256 * 256 + q.val % 256 = q.val; omega)

/-- A rank-2 array as a function of its row and its column. -/
abbrev tbl {a b : ℕ} (M : (⟨2, ![a, b]⟩ : Shape).Idx → EReal) (i : Fin a) (j : Fin b) : EReal := M (ix2 i j)
/-- A rank-1 array as a function of its entry. -/
abbrev vct {a : ℕ} (u : (⟨1, ![a]⟩ : Shape).Idx → EReal) (i : Fin a) : EReal := u (ix1 i)

/-- A sum over 512 entries is the sum over the first half plus the sum over the second half. -/
theorem sum_lo_hi (f : Fin 512 → EReal) : ∑ k : Fin 512, f k = ∑ k : Fin 256, f (lo k) + ∑ k : Fin 256, f (hi k) :=
  Fin.sum_univ_add (M := EReal) (a := 256) (b := 256) f

/-- A sum over three components started from zero is the left-nested sum of the three terms. -/
theorem zero_add_sum_three (f : Fin 3 → EReal) : (0 : EReal) + ∑ c : Fin 3, f c = (f 0 + f 1) + f 2 := by
  rw [zero_add, Fin.sum_univ_three]

section Row

variable (We : Fin 256 → Fin 512 → EReal) (W1 : Fin 512 → Fin 256 → EReal) (b1 : Fin 256 → EReal)
  (W2 : Fin 256 → Fin 768 → EReal) (b2 : Fin 768 → EReal)

/-- One spatial component projected: entry k is Σ_h v h · We h k. -/
def proj (v : Fin 256 → EReal) (k : Fin 512) : EReal := ∑ h : Fin 256, v h * We h k

/-- The norm over the three components of the lo halves of the projections. -/
def nrm (v : Fin 3 → Fin 256 → EReal) (h : Fin 256) : EReal :=
  Ideal.sqrt ((proj We (v 0) (lo h) * proj We (v 0) (lo h) + proj We (v 1) (lo h) * proj We (v 1) (lo h))
    + proj We (v 2) (lo h) * proj We (v 2) (lo h))

/-- The dot product over the three components of the lo halves with the hi halves, scaled by 1/16. -/
def vdot (v : Fin 3 → Fin 256 → EReal) (h : Fin 256) : EReal :=
  ((proj We (v 0) (lo h) * proj We (v 0) (hi h) + proj We (v 1) (lo h) * proj We (v 1) (hi h))
    + proj We (v 2) (lo h) * proj We (v 2) (hi h)) * Ideal.ofBits .f32 0x3D800000#32

/-- The first layer on the row [x, norm]: the 256 terms that read x, the 256 that read the norm, the bias. -/
def pre (x : Fin 256 → EReal) (v : Fin 3 → Fin 256 → EReal) (j : Fin 256) : EReal :=
  (∑ k : Fin 256, x k * W1 (lo k) j + ∑ k : Fin 256, nrm We v k * W1 (hi k) j) + b1 j

/-- y ↦ y · logistic y of the first layer. -/
def act (x : Fin 256 → EReal) (v : Fin 3 → Fin 256 → EReal) (j : Fin 256) : EReal :=
  pre We W1 b1 x v j * Ideal.logistic (pre We W1 b1 x v j)

/-- The second layer with its bias. -/
def mlp (x : Fin 256 → EReal) (v : Fin 3 → Fin 256 → EReal) (q : Fin 768) : EReal :=
  ∑ j : Fin 256, act We W1 b1 x v j * W2 j q + b2 q

/-- The scalar output of the row. -/
def dxRow (x : Fin 256 → EReal) (v : Fin 3 → Fin 256 → EReal) (h : Fin 256) : EReal :=
  ((mlp We W1 b1 W2 b2 x v (third 0 h) + mlp We W1 b1 W2 b2 x v (third 1 h)) + vdot We v h)
    * Ideal.ofBits .f32 0x3F3504F3#32

/-- The vector output of the row: component c multiplied by the last third of the second layer. -/
def dvRow (x : Fin 256 → EReal) (v : Fin 3 → Fin 256 → EReal) (c : Fin 3) (h : Fin 256) : EReal :=
  mlp We W1 b1 W2 b2 x v (third 2 h) * proj We (v c) (hi h)

end Row

/-! ## A batch of R rows -/

section Batch

variable {R : ℕ} (X : (⟨2, ![R, 256]⟩ : Shape).Idx → EReal) (V : (⟨2, ![R, 768]⟩ : Shape).Idx → EReal)
  (We : (⟨2, ![256, 512]⟩ : Shape).Idx → EReal) (W1 : (⟨2, ![512, 256]⟩ : Shape).Idx → EReal)
  (b1 : (⟨1, ![256]⟩ : Shape).Idx → EReal) (W2 : (⟨2, ![256, 768]⟩ : Shape).Idx → EReal)
  (b2 : (⟨1, ![768]⟩ : Shape).Idx → EReal)

/-- The scalar outputs of a batch whose components lie flattened, third by third, in rows of 768 entries. -/
def dxArr : (⟨2, ![R, 256]⟩ : Shape).Idx → EReal := fun i =>
  dxRow (tbl We) (tbl W1) (vct b1) (tbl W2) (vct b2) (tbl X (i 0)) (fun c k => V (ix2 (i 0) (third c k))) (i 1)

/-- The vector outputs of the batch, flattened the same way. -/
def dvArr : (⟨2, ![R, 768]⟩ : Shape).Idx → EReal := fun i =>
  dvRow (tbl We) (tbl W1) (vct b1) (tbl W2) (vct b2) (tbl X (i 0)) (fun c k => V (ix2 (i 0) (third c k)))
    (thirdOf (i 1)) (within (i 1))

theorem dxArr_ix2 (p : Fin R) (h : Fin 256) : dxArr X V We W1 b1 W2 b2 (ix2 p h)
    = dxRow (tbl We) (tbl W1) (vct b1) (tbl W2) (vct b2) (tbl X p) (fun c k => V (ix2 p (third c k))) h := rfl

theorem dvArr_ix2 (p : Fin R) (c : Fin 3) (h : Fin 256) : dvArr X V We W1 b1 W2 b2 (ix2 p (third c h))
    = dvRow (tbl We) (tbl W1) (vct b1) (tbl W2) (vct b2) (tbl X p) (fun c k => V (ix2 p (third c k))) c h := by
  show dvRow _ _ _ _ _ _ _ (thirdOf (third c h)) (within (third c h)) = _
  rw [thirdOf_third, within_third]
  rfl

end Batch

end Cert.Equi

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.KernelRow.lean ====
/-
  The kernel body's arithmetic on a block of 1000 rows, read at one entry.

  The body loads a block x of the features (1000 × 256), the three thirds of a block of the flattened components
  (1000 × 256 each) and the tables whole. Entry (p, ·) of every value it computes depends on row p of the blocks
  alone: each projection is a matrix product into zeros (a sum over the 256 contracted entries), the halves of a
  projection and the halves of the first-layer table are unit-stride slices, the biases are rows broadcast down the
  block. So each stored value at (p, h) is the row function of Cert.Equi at row p of the blocks.
-/
import proofs.«148537_j42949673220_2_alg».proof.Proof.Gen.KernelIdeal.Skeleton
import proofs.«148537_j42949673220_2_alg».proof.Proof.EquiSpec
import proofs.«148537_j42949673220_2_alg».proof.Proof.LibPlainMatmul
import proofs.«148537_j42949673220_2_alg».proof.Proof.LibColRowBroadcast
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Equi

/-- Three rows as the three components of one row. -/
def comps (a b c : Fin 256 → EReal) : Fin 3 → Fin 256 → EReal := fun i =>
  match i with
  | ⟨0, _⟩ => a
  | ⟨1, _⟩ => b
  | ⟨2, _⟩ => c

/-- The three matrix products of the body are plain M × K by K × N products. -/
theorem dotA_eq : dot_S1000x256_S256x512_S1000x512_1_0_0_1_n_n = DotDims.plain 1000 256 512 := rfl
theorem dotB_eq : dot_S1000x256_S256x256_S1000x256_1_0_0_1_n_n = DotDims.plain 1000 256 256 := rfl
theorem dotC_eq : dot_S1000x256_S256x768_S1000x768_1_0_0_1_n_n = DotDims.plain 1000 256 768 := rfl

/-! ## Slices -/

theorem slice512_lo (y : FVec Ideal S1000x512 .f32) (p : Fin 1000) (h : Fin 256) :
    extractStridedSlice S1000x256 ![0, 0] y slices_S1000x512_o0_0_S1000x256 (ix2 p h) = y (ix2 p (lo h)) :=
  extractStridedSlice_apply ![0, 0] y slices_S1000x512_o0_0_S1000x256 (ix2 p h) (ix2 p (lo h)) (fun a => by
    match a with
    | ⟨0, _⟩ => show p.val = 0 + p.val; omega
    | ⟨1, _⟩ => show h.val = 0 + h.val; omega)

theorem slice512_hi (y : FVec Ideal S1000x512 .f32) (p : Fin 1000) (h : Fin 256) :
    extractStridedSlice S1000x256 ![0, 256] y slices_S1000x512_o0_256_S1000x256 (ix2 p h) = y (ix2 p (hi h)) :=
  extractStridedSlice_apply ![0, 256] y slices_S1000x512_o0_256_S1000x256 (ix2 p h) (ix2 p (hi h)) (fun a => by
    match a with
    | ⟨0, _⟩ => show p.val = 0 + p.val; omega
    | ⟨1, _⟩ => show 256 + h.val = 256 + h.val; rfl)

theorem slice768_0 (y : FVec Ideal S1000x768 .f32) (p : Fin 1000) (h : Fin 256) :
    extractStridedSlice S1000x256 ![0, 0] y slices_S1000x768_o0_0_S1000x256 (ix2 p h) = y (ix2 p (third 0 h)) :=
  extractStridedSlice_apply ![0, 0] y slices_S1000x768_o0_0_S1000x256 (ix2 p h) (ix2 p (third 0 h)) (fun a => by
    match a with
    | ⟨0, _⟩ => show p.val = 0 + p.val; omega
    | ⟨1, _⟩ => show 0 * 256 + h.val = 0 + h.val; omega)

theorem slice768_1 (y : FVec Ideal S1000x768 .f32) (p : Fin 1000) (h : Fin 256) :
    extractStridedSlice S1000x256 ![0, 256] y slices_S1000x768_o0_256_S1000x256 (ix2 p h) = y (ix2 p (third 1 h)) :=
  extractStridedSlice_apply ![0, 256] y slices_S1000x768_o0_256_S1000x256 (ix2 p h) (ix2 p (third 1 h)) (fun a => by
    match a with
    | ⟨0, _⟩ => show p.val = 0 + p.val; omega
    | ⟨1, _⟩ => show 1 * 256 + h.val = 256 + h.val; omega)

theorem slice768_2 (y : FVec Ideal S1000x768 .f32) (p : Fin 1000) (h : Fin 256) :
    extractStridedSlice S1000x256 ![0, 512] y slices_S1000x768_o0_512_S1000x256 (ix2 p h) = y (ix2 p (third 2 h)) :=
  extractStridedSlice_apply ![0, 512] y slices_S1000x768_o0_512_S1000x256 (ix2 p h) (ix2 p (third 2 h)) (fun a => by
    match a with
    | ⟨0, _⟩ => show p.val = 0 + p.val; omega
    | ⟨1, _⟩ => show 2 * 256 + h.val = 512 + h.val; omega)

theorem sliceW1_lo (y : FVec Ideal S512x256 .f32) (k j : Fin 256) :
    extractStridedSlice S256x256 ![0, 0] y slices_S512x256_o0_0_S256x256 (ix2 k j) = y (ix2 (lo k) j) :=
  extractStridedSlice_apply ![0, 0] y slices_S512x256_o0_0_S256x256 (ix2 k j) (ix2 (lo k) j) (fun a => by
    match a with
    | ⟨0, _⟩ => show k.val = 0 + k.val; omega
    | ⟨1, _⟩ => show j.val = 0 + j.val; omega)

theorem sliceW1_hi (y : FVec Ideal S512x256 .f32) (k j : Fin 256) :
    extractStridedSlice S256x256 ![256, 0] y slices_S512x256_o256_0_S256x256 (ix2 k j) = y (ix2 (hi k) j) :=
  extractStridedSlice_apply ![256, 0] y slices_S512x256_o256_0_S256x256 (ix2 k j) (ix2 (hi k) j) (fun a => by
    match a with
    | ⟨0, _⟩ => show 256 + k.val = 256 + k.val; rfl
    | ⟨1, _⟩ => show j.val = 0 + j.val; omega)

/-! ## The projections -/

/-- Entry (p, k) of one component's projection: the sum over the 256 contracted entries. -/
theorem proj_apply (v1 : Vec Ideal S1000x256 .f32) (v7 : Vec Ideal S256x512 .f32) (p : Fin 1000) (k : Fin 512) :
    k0_pay7 (F := Ideal) v1 v7 (ix2 p k) = proj (tbl v7) (tbl v1 p) k := by
  unfold k0_pay7
  rw [shapeCast_self]
  exact Cert.PlainMatmul.matmul_zero_apply 1000 256 512 (some .fp32) v1 v7 p k

theorem pay8_eq : @k0_pay8 = @k0_pay7 := rfl
theorem pay9_eq : @k0_pay9 = @k0_pay7 := rfl
theorem pay12_eq : @k0_pay12 = @k0_pay10 := rfl
theorem pay14_eq : @k0_pay14 = @k0_pay10 := rfl
theorem pay13_eq : @k0_pay13 = @k0_pay11 := rfl
theorem pay15_eq : @k0_pay15 = @k0_pay11 := rfl

/-- The lo half of a projection. -/
theorem projLo_apply (v1 : Vec Ideal S1000x256 .f32) (v7 : Vec Ideal S256x512 .f32) (p : Fin 1000) (h : Fin 256) :
    k0_pay10 (F := Ideal) v1 v7 (ix2 p h) = proj (tbl v7) (tbl v1 p) (lo h) := by
  unfold k0_pay10
  exact (slice512_lo _ p h).trans (proj_apply v1 v7 p (lo h))

/-- The hi half of a projection. -/
theorem projHi_apply (v1 : Vec Ideal S1000x256 .f32) (v7 : Vec Ideal S256x512 .f32) (p : Fin 1000) (h : Fin 256) :
    k0_pay11 (F := Ideal) v1 v7 (ix2 p h) = proj (tbl v7) (tbl v1 p) (hi h) := by
  unfold k0_pay11
  exact (slice512_hi _ p h).trans (proj_apply v1 v7 p (hi h))

/-! ## The dot product over the components -/

theorem vdot_apply (v1 v3 v5 : Vec Ideal S1000x256 .f32) (v7 : Vec Ideal S256x512 .f32) (p : Fin 1000) (h : Fin 256) :
    k0_pay16 (F := Ideal) v1 v3 v5 v7 (ix2 p h) = vdot (tbl v7) (comps (tbl v1 p) (tbl v3 p) (tbl v5 p)) h := by
  unfold k0_pay16
  rw [pay12_eq, pay14_eq, pay13_eq, pay15_eq]
  show ((k0_pay10 v1 v7 (ix2 p h) * k0_pay11 v1 v7 (ix2 p h) + k0_pay10 v3 v7 (ix2 p h) * k0_pay11 v3 v7 (ix2 p h))
      + k0_pay10 v5 v7 (ix2 p h) * k0_pay11 v5 v7 (ix2 p h)) * Ideal.ofBits .f32 0x3D800000#32 = _
  rw [projLo_apply, projLo_apply, projLo_apply, projHi_apply, projHi_apply, projHi_apply]
  rfl

/-! ## The first layer -/

/-- The norm over the components at (p, k). -/
theorem nrm_apply (v1 v3 v5 : Vec Ideal S1000x256 .f32) (v7 : Vec Ideal S256x512 .f32) (p : Fin 1000) (k : Fin 256) :
    sqrt (addf (addf (mulf (k0_pay10 (F := Ideal) v1 v7) (k0_pay10 v1 v7)) (mulf (k0_pay10 v3 v7) (k0_pay10 v3 v7)))
      (mulf (k0_pay10 v5 v7) (k0_pay10 v5 v7))) (ix2 p k) = nrm (tbl v7) (comps (tbl v1 p) (tbl v3 p) (tbl v5 p)) k := by
  show Ideal.sqrt ((k0_pay10 v1 v7 (ix2 p k) * k0_pay10 v1 v7 (ix2 p k) + k0_pay10 v3 v7 (ix2 p k) * k0_pay10 v3 v7 (ix2 p k))
      + k0_pay10 v5 v7 (ix2 p k) * k0_pay10 v5 v7 (ix2 p k)) = _
  rw [projLo_apply, projLo_apply, projLo_apply]
  rfl

/-- A bias of 256 entries cast to a row and broadcast down the block, at (p, j). -/
theorem bias256_apply (v33 : Vec Ideal S256 .f32) (p : Fin 1000) (j : Fin 256) :
    broadcastTo S1000x256 (shapeCast S1x256 v33 shapeCasts_S256_S1x256) broadcasts_S1x256_S1000x256 (ix2 p j) = v33 (ix1 j) :=
  (Cert.ColRowBroadcast.rowBroadcast_apply _ broadcasts_S1x256_S1000x256 p j).trans
    (Cert.ColRowBroadcast.rowCast_apply v33 shapeCasts_S256_S1x256 0 j)

/-- A bias of 768 entries cast to a row and broadcast down the block, at (p, q). -/
theorem bias768_apply (v43 : Vec Ideal S768 .f32) (p : Fin 1000) (q : Fin 768) :
    broadcastTo S1000x768 (shapeCast S1x768 v43 shapeCasts_S768_S1x768) broadcasts_S1x768_S1000x768 (ix2 p q) = v43 (ix1 q) :=
  (Cert.ColRowBroadcast.rowBroadcast_apply _ broadcasts_S1x768_S1000x768 p q).trans
    (Cert.ColRowBroadcast.rowCast_apply v43 shapeCasts_S768_S1x768 0 q)

theorem pre_apply (v0 v1 v3 v5 : Vec Ideal S1000x256 .f32) (v7 : Vec Ideal S256x512 .f32) (v30 : Vec Ideal S512x256 .f32)
    (v33 : Vec Ideal S256 .f32) (p : Fin 1000) (j : Fin 256) :
    k0_pay17 (F := Ideal) v0 v1 v3 v5 v7 v30 v33 (ix2 p j)
      = pre (tbl v7) (tbl v30) (vct v33) (tbl v0 p) (comps (tbl v1 p) (tbl v3 p) (tbl v5 p)) j := by
  unfold k0_pay17
  rw [pay12_eq, pay14_eq]
  refine congrArg₂ (· + ·) (congrArg₂ (· + ·) ?_ ?_) (bias256_apply v33 p j)
  · refine (Cert.PlainMatmul.matmul_zero_apply 1000 256 256 (some .fp32) v0 _ p j).trans ?_
    exact Finset.sum_congr rfl fun k _ => congrArg (v0 (ix2 p k) * ·) (sliceW1_lo v30 k j)
  · refine (Cert.PlainMatmul.matmul_zero_apply 1000 256 256 (some .fp32) _ _ p j).trans ?_
    exact Finset.sum_congr rfl fun k _ => congrArg₂ (· * ·) (nrm_apply v1 v3 v5 v7 p k) (sliceW1_hi v30 k j)

/-! ## The second layer -/

theorem mlp_apply (v39 : FVec Ideal S1000x256 .f32) (v42 : Vec Ideal S256x768 .f32) (v43 : Vec Ideal S768 .f32)
    (p : Fin 1000) (q : Fin 768) :
    k0_pay1 (F := Ideal) v39 v42 v43 (ix2 p q)
      = ∑ j : Fin 256, (v39 (ix2 p j) * Ideal.logistic (v39 (ix2 p j))) * v42 (ix2 j q) + v43 (ix1 q) := by
  unfold k0_pay1
  refine congrArg₂ (· + ·) ?_ (bias768_apply v43 p q)
  exact Cert.PlainMatmul.matmul_zero_apply 1000 256 768 (some .fp32) _ v42 p q

end Cert.KernelIdeal.Row

end
-- ==== Proof.KernelBlock.lean ====
/-
  What the body leaves in its two output buffers, as functions of the input blocks.

  The scalar output's buffer is stored whole: its entry (p, h) is the scalar output of row p of the blocks. The
  vector output's buffer is stored in three pieces of 256 columns, piece c holding component c: its entry
  (p, c · 256 + h) is the vector output of row p at component c, entry h. The three loads of the components block read
  its three thirds, so row p of the loads is the three components of row p of the block.
-/
import proofs.«148537_j42949673220_2_alg».proof.Proof.Gen.KernelIdeal.Frame
import proofs.«148537_j42949673220_2_alg».proof.Proof.KernelRow

noncomputable section

open scoped BigOperators

namespace Cert.KernelIdeal.Block

open Cert.KernelIdeal Cert.KernelIdeal.Gen Cert.KernelIdeal.Row Idealize.ShloMosaic Idealize.ShloMosaic.ValueIdx Cert.Equi

theorem hz2 : (![0, 0] : Fin 2 → Nat) = fun _ => 0 := funext fun a => by fin_cases a <;> rfl
theorem hz1 : (![0] : Fin 1 → Nat) = fun _ => 0 := funext fun a => by fin_cases a <;> rfl

section Payloads

variable (v0 v1 v3 v5 : Vec Ideal S1000x256 .f32) (v7 : Vec Ideal S256x512 .f32) (v30 : Vec Ideal S512x256 .f32)
  (v33 : Vec Ideal S256 .f32) (v42 : Vec Ideal S256x768 .f32) (v43 : Vec Ideal S768 .f32)

/-- The second layer on the first layer of the block, at (p, q). -/
theorem mlpRow_apply (p : Fin 1000) (q : Fin 768) :
    k0_pay1 (F := Ideal) (k0_pay17 v0 v1 v3 v5 v7 v30 v33) v42 v43 (ix2 p q)
      = mlp (tbl v7) (tbl v30) (vct v33) (tbl v42) (vct v43) (tbl v0 p) (comps (tbl v1 p) (tbl v3 p) (tbl v5 p)) q := by
  rw [mlp_apply]
  simp only [pre_apply]
  rfl

/-- The stored scalar output at (p, h). -/
theorem dx_apply (p : Fin 1000) (h : Fin 256) :
    k0_pay3 (F := Ideal) (k0_pay16 v1 v3 v5 v7) (k0_pay17 v0 v1 v3 v5 v7 v30 v33) v42 v43 (ix2 p h)
      = dxRow (tbl v7) (tbl v30) (vct v33) (tbl v42) (vct v43) (tbl v0 p) (comps (tbl v1 p) (tbl v3 p) (tbl v5 p)) h := by
  unfold k0_pay3
  refine congrArg₂ (· * ·) (congrArg₂ (· + ·) (congrArg₂ (· + ·) ?_ ?_) (vdot_apply v1 v3 v5 v7 p h)) rfl
  · exact (slice768_0 _ p h).trans (mlpRow_apply v0 v1 v3 v5 v7 v30 v33 v42 v43 p (third 0 h))
  · exact (slice768_1 _ p h).trans (mlpRow_apply v0 v1 v3 v5 v7 v30 v33 v42 v43 p (third 1 h))

/-- The common factor of the vector output at (p, h): the last third of the second layer. -/
theorem factor_apply (p : Fin 1000) (h : Fin 256) :
    k0_pay2 (F := Ideal) (k0_pay17 v0 v1 v3 v5 v7 v30 v33) v42 v43 (ix2 p h)
      = mlp (tbl v7) (tbl v30) (vct v33) (tbl v42) (vct v43) (tbl v0 p) (comps (tbl v1 p) (tbl v3 p) (tbl v5 p)) (third 2 h) := by
  unfold k0_pay2
  exact (slice768_2 _ p h).trans (mlpRow_apply v0 v1 v3 v5 v7 v30 v33 v42 v43 p (third 2 h))

/-- The stored vector output, component 0, at (p, h). -/
theorem dv0_apply (p : Fin 1000) (h : Fin 256) :
    k0_pay4 (F := Ideal) (k0_pay11 v1 v7) (k0_pay17 v0 v1 v3 v5 v7 v30 v33) v42 v43 (ix2 p h)
      = dvRow (tbl v7) (tbl v30) (vct v33) (tbl v42) (vct v43) (tbl v0 p) (comps (tbl v1 p) (tbl v3 p) (tbl v5 p)) 0 h := by
  unfold k0_pay4
  exact congrArg₂ (· * ·) (factor_apply v0 v1 v3 v5 v7 v30 v33 v42 v43 p h) (projHi_apply v1 v7 p h)

/-- Component 1. -/
theorem dv1_apply (p : Fin 1000) (h : Fin 256) :
    k0_pay5 (F := Ideal) (k0_pay13 v3 v7) (k0_pay17 v0 v1 v3 v5 v7 v30 v33) v42 v43 (ix2 p h)
      = dvRow (tbl v7) (tbl v30) (vct v33) (tbl v42) (vct v43) (tbl v0 p) (comps (tbl v1 p) (tbl v3 p) (tbl v5 p)) 1 h := by
  unfold k0_pay5
  rw [pay13_eq]
  exact congrArg₂ (· * ·) (factor_apply v0 v1 v3 v5 v7 v30 v33 v42 v43 p h) (projHi_apply v3 v7 p h)

/-- Component 2. -/
theorem dv2_apply (p : Fin 1000) (h : Fin 256) :
    k0_pay6 (F := Ideal) (k0_pay15 v5 v7) (k0_pay17 v0 v1 v3 v5 v7 v30 v33) v42 v43 (ix2 p h)
      = dvRow (tbl v7) (tbl v30) (vct v33) (tbl v42) (vct v43) (tbl v0 p) (comps (tbl v1 p) (tbl v3 p) (tbl v5 p)) 2 h := by
  unfold k0_pay6
  rw [pay15_eq]
  exact congrArg₂ (· * ·) (factor_apply v0 v1 v3 v5 v7 v30 v33 v42 v43 p h) (projHi_apply v5 v7 p h)

end Payloads

/-! ## The three loads of the components block, and the three stores of the vector output -/

section Thirds

variable (x1 : Vec Ideal S1000x768 .f32)

theorem idx_third0 (p : Fin 1000) (k : Fin 256) : r0_1.idx (ix2 p k) = ix2 p (third 0 k) :=
  funext fun a => Fin.ext (by
    match a with
    | ⟨0, _⟩ => show 0 + 1 * p.val = p.val; omega
    | ⟨1, _⟩ => show 0 + 1 * k.val = 0 * 256 + k.val; omega)
theorem idx_third1 (p : Fin 1000) (k : Fin 256) : r0_2.idx (ix2 p k) = ix2 p (third 1 k) :=
  funext fun a => Fin.ext (by
    match a with
    | ⟨0, _⟩ => show 0 + 1 * p.val = p.val; omega
    | ⟨1, _⟩ => show 256 + 1 * k.val = 1 * 256 + k.val; omega)
theorem idx_third2 (p : Fin 1000) (k : Fin 256) : r0_3.idx (ix2 p k) = ix2 p (third 2 k) :=
  funext fun a => Fin.ext (by
    match a with
    | ⟨0, _⟩ => show 0 + 1 * p.val = p.val; omega
    | ⟨1, _⟩ => show 512 + 1 * k.val = 2 * 256 + k.val; omega)

/-- Row p of the three loads is the three components of row p of the block. -/
theorem comps_ld (p : Fin 1000) :
    comps (tbl (a := 1000) (b := 256) (View.ld x1 r0_1) p) (tbl (a := 1000) (b := 256) (View.ld x1 r0_2) p)
      (tbl (a := 1000) (b := 256) (View.ld x1 r0_3) p) = fun c k => x1 (ix2 p (third c k)) := by
  funext c k
  match c with
  | ⟨0, _⟩ => exact congrArg x1 (idx_third0 p k)
  | ⟨1, _⟩ => exact congrArg x1 (idx_third1 p k)
  | ⟨2, _⟩ => exact congrArg x1 (idx_third2 p k)

end Thirds

/-! ## The two output buffers -/

section Out

variable (x0 : Vec Ideal S1000x256 .f32) (x1 : Vec Ideal S1000x768 .f32) (x2 : Vec Ideal S256x512 .f32)
  (x3 : Vec Ideal S512x256 .f32) (x4 : Vec Ideal S256 .f32) (x5 : Vec Ideal S256x768 .f32) (x6 : Vec Ideal S768 .f32)

/-- The scalar output's buffer after the body. -/
theorem out7_eq : out0_7 (F := Ideal) x0 x1 x2 x3 x4 x5 x6 = dxArr x0 x1 x2 x3 x4 x5 x6 := by
  unfold out0_7
  rw [View.canon_unit_zero hz2]
  simp only [View.ld_unit_zero (S := S1000x256) hz2, View.ld_unit_zero (S := S256x512) hz2,
    View.ld_unit_zero (S := S512x256) hz2, View.ld_unit_zero (S := S256) hz1, View.ld_unit_zero (S := S256x768) hz2,
    View.ld_unit_zero (S := S768) hz1]
  funext y
  obtain ⟨p, h, rfl⟩ : ∃ (p : Fin 1000) (h : Fin 256), y = ix2 p h := ⟨y 0, y 1, eq_ix2 y⟩
  rw [dx_apply, comps_ld]
  rfl

/-- The vector output's buffer after the body. -/
theorem out8_eq : out0_8 (F := Ideal) x0 x1 x2 x3 x4 x5 x6 = dvArr x0 x1 x2 x3 x4 x5 x6 := by
  unfold out0_8
  simp only [View.ld_unit_zero (S := S1000x256) hz2, View.ld_unit_zero (S := S256x512) hz2,
    View.ld_unit_zero (S := S512x256) hz2, View.ld_unit_zero (S := S256) hz1, View.ld_unit_zero (S := S256x768) hz2,
    View.ld_unit_zero (S := S768) hz1]
  funext y
  refine View.canon_apply_of_pieces (Val := Elt Ideal) (S := S1000x768) (e := .f32) (dvArr x0 x1 x2 x3 x4 x5 x6) _ ?_ y (cover0_8 _ _ _ y)
  intro pc hpc x
  simp only [List.mem_cons, List.mem_nil_iff, or_false] at hpc
  rcases hpc with rfl | rfl | rfl
  · obtain ⟨p, h, rfl⟩ : ∃ (p : Fin 1000) (h : Fin 256), x = ix2 p h := ⟨x 0, x 1, eq_ix2 x⟩
    show _ = dvArr x0 x1 x2 x3 x4 x5 x6 (r0_3.idx (ix2 p h))
    rw [idx_third2, dvArr_ix2, ← comps_ld]
    exact dv2_apply _ _ _ _ _ _ _ _ _ p h
  · obtain ⟨p, h, rfl⟩ : ∃ (p : Fin 1000) (h : Fin 256), x = ix2 p h := ⟨x 0, x 1, eq_ix2 x⟩
    show _ = dvArr x0 x1 x2 x3 x4 x5 x6 (r0_2.idx (ix2 p h))
    rw [idx_third1, dvArr_ix2, ← comps_ld]
    exact dv1_apply _ _ _ _ _ _ _ _ _ p h
  · obtain ⟨p, h, rfl⟩ : ∃ (p : Fin 1000) (h : Fin 256), x = ix2 p h := ⟨x 0, x 1, eq_ix2 x⟩
    show _ = dvArr x0 x1 x2 x3 x4 x5 x6 (r0_1.idx (ix2 p h))
    rw [idx_third0, dvArr_ix2, ← comps_ld]
    exact dv0_apply _ _ _ _ _ _ _ _ _ p h

end Out

end Cert.KernelIdeal.Block

end
-- ==== Proof.EquiFlat.lean ====
/-
  A batch's outputs when its components lie as [R, 3, 256] instead of flattened into rows of 768 entries.

  Re-laying [R, 3, 256] as [R, 768] puts entry h of component c of row n at entry c · 256 + h of row n: both have
  row-major position (3 n + c) · 256 + h. So the scalar outputs computed from the flattened components are the ones
  computed from the components themselves, and the flattened vector outputs re-laid as [R, 3, 256] are the vector
  outputs component by component. A batch output at row n depends on row n of its two inputs alone, which lets a block
  of rows of a batch stand for the rows it was cut from.
-/
import proofs.«148537_j42949673220_2_alg».proof.Proof.EquiSpec
import Idealize.ShloMosaic.Lib.Pipeline.Value

noncomputable section

open scoped BigOperators

namespace Cert.Equi

open Idealize.ShloMosaic Idealize.ShloMosaic.ValueIdx

section Flat

variable {R : ℕ} (X : (⟨2, ![R, 256]⟩ : Shape).Idx → EReal) (Vc : (⟨3, ![R, 3, 256]⟩ : Shape).Idx → EReal)
  (We : (⟨2, ![256, 512]⟩ : Shape).Idx → EReal) (W1 : (⟨2, ![512, 256]⟩ : Shape).Idx → EReal)
  (b1 : (⟨1, ![256]⟩ : Shape).Idx → EReal) (W2 : (⟨2, ![256, 768]⟩ : Shape).Idx → EReal)
  (b2 : (⟨1, ![768]⟩ : Shape).Idx → EReal)

/-- The scalar outputs of a batch, from its components as [R, 3, 256]. -/
def dxOut : (⟨2, ![R, 256]⟩ : Shape).Idx → EReal := fun i =>
  dxRow (tbl We) (tbl W1) (vct b1) (tbl W2) (vct b2) (tbl X (i 0)) (fun c k => Vc (ix3 (i 0) c k)) (i 1)

/-- The vector outputs of the batch, as [R, 3, 256]. -/
def dvOut : (⟨3, ![R, 3, 256]⟩ : Shape).Idx → EReal := fun i =>
  dvRow (tbl We) (tbl W1) (vct b1) (tbl W2) (vct b2) (tbl X (i 0)) (fun c k => Vc (ix3 (i 0) c k)) (i 1) (i 2)

/-- The flattened components at entry c · 256 + k of row n are component c of row n at entry k. -/
theorem flat_apply (hc : (⟨3, ![R, 3, 256]⟩ : Shape).ShapeCasts ⟨2, ![R, 768]⟩) (n : Fin R) (c : Fin 3) (k : Fin 256) :
    shapeCast ⟨2, ![R, 768]⟩ Vc hc (ix2 n (third c k)) = Vc (ix3 n c k) := by
  refine shapeCast_apply Vc hc (ix2 n (third c k)) (ix3 n c k) ?_
  rw [Shape.rowMajor_val_three, Shape.rowMajor_val_two]
  show (n.val * 3 + c.val) * 256 + k.val = n.val * 768 + (c.val * 256 + k.val)
  omega

/-- The scalar outputs from the flattened components are the scalar outputs from the components. -/
theorem dxArr_flat (hc : (⟨3, ![R, 3, 256]⟩ : Shape).ShapeCasts ⟨2, ![R, 768]⟩) :
    dxArr X (shapeCast ⟨2, ![R, 768]⟩ Vc hc) We W1 b1 W2 b2 = dxOut X Vc We W1 b1 W2 b2 := by
  funext i
  obtain ⟨n, h, rfl⟩ : ∃ (n : Fin R) (h : Fin 256), i = ix2 n h := ⟨i 0, i 1, eq_ix2 i⟩
  rw [dxArr_ix2]
  simp only [flat_apply]
  rfl

/-- The flattened vector outputs re-laid as [R, 3, 256] are the vector outputs component by component. -/
theorem dvArr_unflat (hc : (⟨3, ![R, 3, 256]⟩ : Shape).ShapeCasts ⟨2, ![R, 768]⟩)
    (hc' : (⟨2, ![R, 768]⟩ : Shape).ShapeCasts ⟨3, ![R, 3, 256]⟩) :
    shapeCast ⟨3, ![R, 3, 256]⟩ (dvArr X (shapeCast ⟨2, ![R, 768]⟩ Vc hc) We W1 b1 W2 b2) hc'
      = dvOut X Vc We W1 b1 W2 b2 := by
  funext i
  obtain ⟨n, c, h, rfl⟩ : ∃ (n : Fin R) (c : Fin 3) (h : Fin 256), i = ix3 n c h := ⟨i 0, i 1, i 2, eq_ix3 i⟩
  refine (shapeCast_apply _ hc' (ix3 n c h) (ix2 n (third c h)) ?_).trans ?_
  · rw [Shape.rowMajor_val_two, Shape.rowMajor_val_three]
    show n.val * 768 + (c.val * 256 + h.val) = (n.val * 3 + c.val) * 256 + h.val
    omega
  rw [dvArr_ix2]
  simp only [flat_apply]
  rfl

end Flat

section Rows

variable {R R' : ℕ} (X : (⟨2, ![R, 256]⟩ : Shape).Idx → EReal) (V : (⟨2, ![R, 768]⟩ : Shape).Idx → EReal)
  (X' : (⟨2, ![R', 256]⟩ : Shape).Idx → EReal) (V' : (⟨2, ![R', 768]⟩ : Shape).Idx → EReal)
  (We : (⟨2, ![256, 512]⟩ : Shape).Idx → EReal) (W1 : (⟨2, ![512, 256]⟩ : Shape).Idx → EReal)
  (b1 : (⟨1, ![256]⟩ : Shape).Idx → EReal) (W2 : (⟨2, ![256, 768]⟩ : Shape).Idx → EReal)
  (b2 : (⟨1, ![768]⟩ : Shape).Idx → EReal)

/-- The scalar output at row p of one batch is the one at row n of another whose row n is that row. -/
theorem dxArr_row (p : Fin R) (n : Fin R') (h : Fin 256) (hX : ∀ k, X (ix2 p k) = X' (ix2 n k))
    (hV : ∀ q, V (ix2 p q) = V' (ix2 n q)) :
    dxArr X V We W1 b1 W2 b2 (ix2 p h) = dxArr X' V' We W1 b1 W2 b2 (ix2 n h) := by
  rw [dxArr_ix2, dxArr_ix2]
  have e1 : tbl X p = tbl X' n := funext fun k => hX k
  have e2 : (fun (c : Fin 3) (k : Fin 256) => V (ix2 p (third c k))) = fun c k => V' (ix2 n (third c k)) :=
    funext fun c => funext fun k => hV _
  rw [e1, e2]

/-- The same for the vector output. -/
theorem dvArr_row (p : Fin R) (n : Fin R') (q : Fin 768) (hX : ∀ k, X (ix2 p k) = X' (ix2 n k))
    (hV : ∀ q, V (ix2 p q) = V' (ix2 n q)) :
    dvArr X V We W1 b1 W2 b2 (ix2 p q) = dvArr X' V' We W1 b1 W2 b2 (ix2 n q) := by
  rw [← third_thirdOf_within q, dvArr_ix2, dvArr_ix2]
  have e1 : tbl X p = tbl X' n := funext fun k => hX k
  have e2 : (fun (c : Fin 3) (k : Fin 256) => V (ix2 p (third c k))) = fun c k => V' (ix2 n (third c k)) :=
    funext fun c => funext fun k => hV _
  rw [e1, e2]

end Rows

end Cert.Equi

end
-- ==== Proof.KernelArray.lean ====
/-
  The kernel's two result arrays after the run.

  The grid has 100 points; point t stages rows 1000 t … 1000 t + 999 of x and of the flattened components and the tables
  whole, and writes back rows 1000 t … 1000 t + 999 of the two outputs. What the body leaves at point t is the batch
  function of its blocks, and a batch output at a row depends on that row alone, so what point t writes back is block t
  of the batch function of the whole arrays. The 100 blocks tile each output array (row r lies in block r / 1000), so
  each output array ends holding the batch function of the arrays. The flattened components are the components re-laid
  by the host before the call, and the second result is the flattened vector outputs re-laid after it.
-/
import proofs.«148537_j42949673220_2_alg».proof.Proof.Gen.KernelIdeal.Frame
import proofs.«148537_j42949673220_2_alg».proof.Proof.KernelBlock
import proofs.«148537_j42949673220_2_alg».proof.Proof.EquiFlat
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block Idealize.ShloMosaic.ValueIdx Cert.Equi

variable (m : (ℓ : Loc nD τ sig) → Buf (Elt Ideal) ℓ) (ρ : Dev nD → PrngReg)

/-! ## The printed index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

theorem lt100 (t : Fin cfg0.N) : t.val < 100 := lt_of_lt_of_eq t.isLt N_0

/-- The row of the arrays that local row p of point t is. -/
def rowAt (t : Fin cfg0.N) (p : Fin 1000) : Fin 100000 :=
  ⟨1000 * t.val + p.val, by have := lt100 t; have := p.isLt; omega⟩

/-! ## The input blocks as rows of the arrays -/

theorem iblk0_apply (c : Dev nD) (t : Fin cfg0.N) (p : Fin 1000) (k : Fin 256) :
    (iblk m c 0 t : Vec Ideal S1000x256 .f32) (ix2 p k)
      = (V m c main_arg0 : S100000x256.Idx → Elt Ideal .f32) (ix2 (rowAt t p) k) := by
  obtain ⟨e0, e1⟩ := idx0 t
  unfold iblk
  rw [View.read_apply]
  show V m c main_arg0 (((cfg0.win 0).blk t).view.emb (ix2 p k)) = V m c main_arg0 (ix2 (rowAt t p) k)
  refine congrArg _ (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 256 + 1 * k.val = k.val; rw [e1]; omega

theorem iblk1_apply (c : Dev nD) (t : Fin cfg0.N) (p : Fin 1000) (q : Fin 768) :
    (iblk m c 1 t : Vec Ideal S1000x768 .f32) (ix2 p q)
      = (V m c main_v0 : S100000x768.Idx → Elt Ideal .f32) (ix2 (rowAt t p) q) := by
  obtain ⟨e0, e1⟩ := idx1 t
  unfold iblk
  rw [View.read_apply]
  show V m c main_v0 (((cfg0.win 1).blk t).view.emb (ix2 p q)) = V m c main_v0 (ix2 (rowAt t p) q)
  refine congrArg _ (funext fun a => Fin.ext ?_)
  match a with
  | ⟨0, _⟩ => show win0_1.index t (0 : Fin 2) * 1000 + 1 * p.val = 1000 * t.val + p.val; rw [e0]; omega
  | ⟨1, _⟩ => show win0_1.index t (1 : Fin 2) * 768 + 1 * q.val = q.val; rw [e1]; omega

theorem iblk2_eq (c : Dev nD) (t : Fin cfg0.N) :
    (iblk m c 2 t : Vec Ideal S256x512 .f32) = (V m c main_arg3 : S256x512.Idx → Elt Ideal .f32) := by
  obtain ⟨e0, e1⟩ := idx2 t
  funext x
  unfold iblk
  rw [View.read_apply]
  show V m c main_arg3 (((cfg0.win 2).blk t).view.emb x) = V m c main_arg3 x
  refine congrArg _ (funext fun a => Fin.ext ?_)
  match a with
  | ⟨0, _⟩ => show win0_2.index t (0 : Fin 2) * 256 + 1 * (x 0).val = (x 0).val; rw [e0]; omega
  | ⟨1, _⟩ => show win0_2.index t (1 : Fin 2) * 512 + 1 * (x 1).val = (x 1).val; rw [e1]; omega

theorem iblk3_eq (c : Dev nD) (t : Fin cfg0.N) :
    (iblk m c 3 t : Vec Ideal S512x256 .f32) = (V m c main_arg4 : S512x256.Idx → Elt Ideal .f32) := by
  obtain ⟨e0, e1⟩ := idx3 t
  funext x
  unfold iblk
  rw [View.read_apply]
  show V m c main_arg4 (((cfg0.win 3).blk t).view.emb x) = V m c main_arg4 x
  refine congrArg _ (funext fun a => Fin.ext ?_)
  match a with
  | ⟨0, _⟩ => show win0_3.index t (0 : Fin 2) * 512 + 1 * (x 0).val = (x 0).val; rw [e0]; omega
  | ⟨1, _⟩ => show win0_3.index t (1 : Fin 2) * 256 + 1 * (x 1).val = (x 1).val; rw [e1]; omega

theorem iblk4_eq (c : Dev nD) (t : Fin cfg0.N) :
    (iblk m c 4 t : Vec Ideal S256 .f32) = (V m c main_arg5 : S256.Idx → Elt Ideal .f32) := by
  have e0 := idx4 t
  funext x
  unfold iblk
  rw [View.read_apply]
  show V m c main_arg5 (((cfg0.win 4).blk t).view.emb x) = V m c main_arg5 x
  refine congrArg _ (funext fun a => Fin.ext ?_)
  match a with
  | ⟨0, _⟩ => show win0_4.index t (0 : Fin 1) * 256 + 1 * (x 0).val = (x 0).val; rw [e0]; omega

theorem iblk5_eq (c : Dev nD) (t : Fin cfg0.N) :
    (iblk m c 5 t : Vec Ideal S256x768 .f32) = (V m c main_arg6 : S256x768.Idx → Elt Ideal .f32) := by
  obtain ⟨e0, e1⟩ := idx5 t
  funext x
  unfold iblk
  rw [View.read_apply]
  show V m c main_arg6 (((cfg0.win 5).blk t).view.emb x) = V m c main_arg6 x
  refine congrArg _ (funext fun a => Fin.ext ?_)
  match a with
  | ⟨0, _⟩ => show win0_5.index t (0 : Fin 2) * 256 + 1 * (x 0).val = (x 0).val; rw [e0]; omega
  | ⟨1, _⟩ => show win0_5.index t (1 : Fin 2) * 768 + 1 * (x 1).val = (x 1).val; rw [e1]; omega

theorem iblk6_eq (c : Dev nD) (t : Fin cfg0.N) :
    (iblk m c 6 t : Vec Ideal S768 .f32) = (V m c main_arg7 : S768.Idx → Elt Ideal .f32) := by
  have e0 := idx6 t
  funext x
  unfold iblk
  rw [View.read_apply]
  show V m c main_arg7 (((cfg0.win 6).blk t).view.emb x) = V m c main_arg7 x
  refine congrArg _ (funext fun a => Fin.ext ?_)
  match a with
  | ⟨0, _⟩ => show win0_6.index t (0 : Fin 1) * 768 + 1 * (x 0).val = (x 0).val; rw [e0]; omega

/-! ## What each point writes back -/

/-- The batch function of the arrays as the call finds them: the scalar outputs, -/
abbrev arrDx (c : Dev nD) : S100000x256.Idx → Elt Ideal .f32 :=
  dxArr (R := 100000) (V m c main_arg0) (V m c main_v0) (V m c main_arg3) (V m c main_arg4) (V m c main_arg5)
    (V m c main_arg6) (V m c main_arg7)
/-- and the flattened vector outputs. -/
abbrev arrDv (c : Dev nD) : S100000x768.Idx → Elt Ideal .f32 :=
  dvArr (R := 100000) (V m c main_arg0) (V m c main_v0) (V m c main_arg3) (V m c main_arg4) (V m c main_arg5)
    (V m c main_arg6) (V m c main_arg7)

theorem emb7 (t : Fin cfg0.N) (p : Fin 1000) (h : Fin 256) :
    ((cfg0.win 7).blk t).view.emb (ix2 p h) = (ix2 (rowAt t p) h : S100000x256.Idx) := by
  obtain ⟨e0, e1⟩ := idx7 t
  refine funext fun a => Fin.ext ?_
  match a with
  | ⟨0, _⟩ => show win0_7.index t (0 : Fin 2) * 1000 + 1 * p.val = 1000 * t.val + p.val; rw [e0]; omega
  | ⟨1, _⟩ => show win0_7.index t (1 : Fin 2) * 256 + 1 * h.val = h.val; rw [e1]; omega

theorem emb8 (t : Fin cfg0.N) (p : Fin 1000) (q : Fin 768) :
    ((cfg0.win 8).blk t).view.emb (ix2 p q) = (ix2 (rowAt t p) q : S100000x768.Idx) := by
  obtain ⟨e0, e1⟩ := idx8 t
  refine funext fun a => Fin.ext ?_
  match a with
  | ⟨0, _⟩ => show win0_8.index t (0 : Fin 2) * 1000 + 1 * p.val = 1000 * t.val + p.val; rw [e0]; omega
  | ⟨1, _⟩ => show win0_8.index t (1 : Fin 2) * 768 + 1 * q.val = q.val; rw [e1]; omega

/-- Point t writes back block t of the scalar outputs of the arrays. -/
theorem flushed7_eq (c : Dev nD) (t : Fin cfg0.N) :
    (dats m 0 c).flushed 7 t = ((cfg0.win 7).blk t).view.read (Elt Ideal) (arrDx m c) := by
  show (cfg0.win 7).cut (grid0.coords t) ((dats m 0 c).after 7 t) = _
  rw [after0_7, out7_eq, iblk2_eq, iblk3_eq, iblk4_eq, iblk5_eq, iblk6_eq]
  funext y
  obtain ⟨p, h, rfl⟩ : ∃ (p : Fin 1000) (h : Fin 256), y = ix2 p h := ⟨y 0, y 1, eq_ix2 y⟩
  rw [View.read_apply]
  show dxArr (R := 1000) (iblk m c 0 t) (iblk m c 1 t) (V m c main_arg3) (V m c main_arg4) (V m c main_arg5)
      (V m c main_arg6) (V m c main_arg7) (ix2 p h) = arrDx m c (((cfg0.win 7).blk t).view.emb (ix2 p h))
  rw [emb7]
  exact dxArr_row (R := 1000) (R' := 100000) _ _ _ _ _ _ _ _ _ p (rowAt t p) h (fun k => iblk0_apply m c t p k)
    (fun q => iblk1_apply m c t p q)

/-- Point t writes back block t of the flattened vector outputs of the arrays. -/
theorem flushed8_eq (c : Dev nD) (t : Fin cfg0.N) :
    (dats m 0 c).flushed 8 t = ((cfg0.win 8).blk t).view.read (Elt Ideal) (arrDv m c) := by
  show (cfg0.win 8).cut (grid0.coords t) ((dats m 0 c).after 8 t) = _
  rw [after0_8, out8_eq, iblk2_eq, iblk3_eq, iblk4_eq, iblk5_eq, iblk6_eq]
  funext y
  obtain ⟨p, q, rfl⟩ : ∃ (p : Fin 1000) (q : Fin 768), y = ix2 p q := ⟨y 0, y 1, eq_ix2 y⟩
  rw [View.read_apply]
  show dvArr (R := 1000) (iblk m c 0 t) (iblk m c 1 t) (V m c main_arg3) (V m c main_arg4) (V m c main_arg5)
      (V m c main_arg6) (V m c main_arg7) (ix2 p q) = arrDv m c (((cfg0.win 8).blk t).view.emb (ix2 p q))
  rw [emb8]
  exact dvArr_row (R := 1000) (R' := 100000) _ _ _ _ _ _ _ _ _ p (rowAt t p) q (fun k => iblk0_apply m c t p k)
    (fun q' => iblk1_apply m c t p q')

/-! ## The blocks tile the arrays -/

theorem mem_blk7 (t : Fin cfg0.N) (i : S100000x256.Idx) :
    i ∈ ((cfg0.win 7).blk t).view.set ↔ ∀ a : Fin 2, win0_7.index t a * S1000x256.size a ≤ (i a).val
      ∧ (i a).val < win0_7.index t a * S1000x256.size a + S1000x256.size a := by
  show i ∈ ((View.whole main_v1_0).slice (win0_7.rect t)).set ↔ _
  rw [View.set_slice_whole, Rect.mem_set_unit]
  exact Iff.rfl

theorem mem_blk8 (t : Fin cfg0.N) (i : S100000x768.Idx) :
    i ∈ ((cfg0.win 8).blk t).view.set ↔ ∀ a : Fin 2, win0_8.index t a * S1000x768.size a ≤ (i a).val
      ∧ (i a).val < win0_8.index t a * S1000x768.size a + S1000x768.size a := by
  show i ∈ ((View.whole main_v1_1).slice (win0_8.rect t)).set ↔ _
  rw [View.set_slice_whole, Rect.mem_set_unit]
  exact Iff.rfl

/-- The point whose block holds row r. -/
def pointOf (r : Fin 100000) : Fin cfg0.N :=
  ⟨r.val / 1000, by rw [show cfg0.N = 100 from N_0]; have := r.isLt; omega⟩

theorem cover7 (i : S100000x256.Idx) : ∃ t : Fin cfg0.N, (cfg0.win 7).flush t = true ∧ i ∈ ((cfg0.win 7).blk t).view.set := by
  refine ⟨pointOf (i 0), flush0_7 _, ?_⟩
  rw [mem_blk7]
  obtain ⟨e0, e1⟩ := idx7 (pointOf (i 0))
  have h0 : (i 0).val < 100000 := (i 0).isLt
  have h1 : (i 1).val < 256 := (i 1).isLt
  have ht : (pointOf (i 0)).val = (i 0).val / 1000 := rfl
  intro a
  match a with
  | ⟨0, _⟩ =>
    show win0_7.index (pointOf (i 0)) (0 : Fin 2) * 1000 ≤ (i 0).val
      ∧ (i 0).val < win0_7.index (pointOf (i 0)) (0 : Fin 2) * 1000 + 1000
    rw [e0, ht]; omega
  | ⟨1, _⟩ =>
    show win0_7.index (pointOf (i 0)) (1 : Fin 2) * 256 ≤ (i 1).val
      ∧ (i 1).val < win0_7.index (pointOf (i 0)) (1 : Fin 2) * 256 + 256
    rw [e1]; omega

theorem cover8 (i : S100000x768.Idx) : ∃ t : Fin cfg0.N, (cfg0.win 8).flush t = true ∧ i ∈ ((cfg0.win 8).blk t).view.set := by
  refine ⟨pointOf (i 0), flush0_8 _, ?_⟩
  rw [mem_blk8]
  obtain ⟨e0, e1⟩ := idx8 (pointOf (i 0))
  have h0 : (i 0).val < 100000 := (i 0).isLt
  have h1 : (i 1).val < 768 := (i 1).isLt
  have ht : (pointOf (i 0)).val = (i 0).val / 1000 := rfl
  intro a
  match a with
  | ⟨0, _⟩ =>
    show win0_8.index (pointOf (i 0)) (0 : Fin 2) * 1000 ≤ (i 0).val
      ∧ (i 0).val < win0_8.index (pointOf (i 0)) (0 : Fin 2) * 1000 + 1000
    rw [e0, ht]; omega
  | ⟨1, _⟩ =>
    show win0_8.index (pointOf (i 0)) (1 : Fin 2) * 768 ≤ (i 1).val
      ∧ (i 1).val < win0_8.index (pointOf (i 0)) (1 : Fin 2) * 768 + 768
    rw [e1]; omega

/-- The scalar outputs' array after the run. -/
theorem final7 (c : Dev nD) : (dats m 0 c).arrAt 7 cfg0.N = arrDx m c :=
  (dats m 0 c).arrAt_eq_of_cover 7 (arrDx m c) (fun t _ => flushed7_eq m c t) cover7

/-- The flattened vector outputs' array after the run. -/
theorem final8 (c : Dev nD) : (dats m 0 c).arrAt 8 cfg0.N = arrDv m c :=
  (dats m 0 c).arrAt_eq_of_cover 8 (arrDv m c) (fun t _ => flushed8_eq m c t) cover8

/-! ## The host's re-laying before and after the call -/

/-- The flattened components the call finds are the components re-laid. -/
theorem V_main_v0 (c : Dev nD) : (V m c main_v0 : S100000x768.Idx → Elt Ideal .f32)
    = shapeCast S100000x768 (m ((c : Thread nD τ).loc main_arg1)) shapeCasts_S100000x3x256_S100000x768 := by
  show StableHlo.after hostOps0 (fun b => m (c, b)) (Proc.devRef .tc main_v0) = _
  after_results
  rfl

/-- The second result is the flattened vector outputs' array re-laid. -/
theorem tail_v2 (c : Dev nD) : Pipeline.afterTail₀ cfgs (dats m) 0 (V0 m) [hostOps1] c main_v2
    = shapeCast S100000x3x256 ((dats m 0 c).arrAt 8 cfg0.N) shapeCasts_S100000x768_S100000x3x256 := by
  unfold Pipeline.afterTail₀
  show StableHlo.after hostOps1 _ (Proc.devRef .tc main_v2) = _
  after_results
  rw [Pipeline.withArrays_arr spec0 launch0.win.arr_inj c _ _ 8]
  rfl

/-! ## The results -/

/-- The scalar result as a function of the argument arrays. -/
abbrev resDx (c : Dev nD) : S100000x256.Idx → Elt Ideal .f32 :=
  dxOut (R := 100000) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7))
/-- The vector result as a function of the argument arrays. -/
abbrev resDv (c : Dev nD) : S100000x3x256.Idx → Elt Ideal .f32 :=
  dvOut (R := 100000) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7))

theorem arrDx_eq (c : Dev nD) : arrDx m c = resDx m c := by
  unfold arrDx resDx
  rw [V_main_v0, V_main_arg0, V_main_arg3, V_main_arg4, V_main_arg5, V_main_arg6, V_main_arg7]
  exact dxArr_flat _ _ _ _ _ _ _ shapeCasts_S100000x3x256_S100000x768

theorem arrDv_eq (c : Dev nD) :
    shapeCast S100000x3x256 (arrDv m c) shapeCasts_S100000x768_S100000x3x256 = resDv m c := by
  unfold arrDv resDv
  rw [V_main_v0, V_main_arg0, V_main_arg3, V_main_arg4, V_main_arg5, V_main_arg6, V_main_arg7]
  exact dvArr_unflat _ _ _ _ _ _ _ shapeCasts_S100000x3x256_S100000x768 shapeCasts_S100000x768_S100000x3x256

/-- The run, read: both results at their functions of the argument arrays, the arguments unchanged. -/
theorem run : θ_run defs (onTc (τ := τ) (main (F := Ideal))) ⟨m, fun _ => 0, ρ⟩ fun r => ∀ c : Dev nD,
      r.2.mem ((c.tc : Thread nD τ).loc main_v1_0) = resDx m c
      ∧ r.2.mem ((c.tc : Thread nD τ).loc main_v2) = resDv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).1 7).trans ((final7 m c).trans (arrDx_eq m c)),
      ((h c).2 main_v2 (Pipeline.mem_restRefs_of main_v2 (by decide) (by decide))).trans
        ((tail_v2 m c).trans ((congrArg (fun A => shapeCast S100000x3x256 A shapeCasts_S100000x768_S100000x3x256)
          (final8 m c)).trans (arrDv_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

end Cert.KernelIdeal.Arr

end
-- ==== Proof.RefRow.lean ====
/-
  The reference, read one row at a time.

  Entry (n, ·) of every array the reference computes depends on row n of x and of the components alone. Reading its
  operations at an index, outermost first: the projection of component c of row n is the sum over the 256 contracted
  entries; the norm and the dot product are sums over the three components started from zero, which are the
  left-nested sums of the three terms; the first layer's 512-term sum over the joined row [x, norm] splits into the 256
  terms that read x and the 256 that read the norm; the expansion of the logistic function into negate, exponential,
  add and divide is the logistic function. So both results at row n are the row functions of Cert.Equi.
-/
import proofs.«148537_j42949673220_2_alg».proof.Proof.Gen.ReferenceIdeal.Read
import proofs.«148537_j42949673220_2_alg».proof.Proof.EquiSpec
import Idealize.ShloMosaic.Lib.IdealHost
import Idealize.ShloMosaic.Lib.Pipeline.Value

noncomputable section

open scoped BigOperators

namespace Cert.ReferenceIdeal.RefRow

open Cert.ReferenceIdeal Cert.ReferenceIdeal.Gen Cert.ReferenceIdeal.Read Idealize.ShloMosaic Idealize.ShloMosaic.ValueIdx Cert.Equi

/-! ## The index maps of the reads, at coordinates -/

theorem lidx_v0 (n : Fin 100000) (c : Fin 3) (k : Fin 512) (h : Fin 256) : lidx_main_v0 (ix3 n c k) h = ix3 n c h :=
  funext fun a => Fin.ext (by match a with | ⟨0, _⟩ => rfl | ⟨1, _⟩ => rfl | ⟨2, _⟩ => rfl)
theorem ridx_v0 (n : Fin 100000) (c : Fin 3) (k : Fin 512) (h : Fin 256) : ridx_main_v0 (ix3 n c k) h = ix2 h k :=
  funext fun a => Fin.ext (by match a with | ⟨0, _⟩ => rfl | ⟨1, _⟩ => rfl)
theorem idx_v1 (n : Fin 100000) (c : Fin 3) (h : Fin 256) : idx_main_v1 (ix3 n c h) = ix3 n c (lo h) :=
  funext fun a => Fin.ext (by match a with | ⟨0, _⟩ => rfl | ⟨1, _⟩ => rfl | ⟨2, _⟩ => rfl)
theorem idx_v2 (n : Fin 100000) (c : Fin 3) (h : Fin 256) : idx_main_v2 (ix3 n c h) = ix3 n c (hi h) :=
  funext fun a => Fin.ext (by match a with | ⟨0, _⟩ => rfl | ⟨1, _⟩ => rfl | ⟨2, _⟩ => rfl)
theorem idx_call0_v1 (n : Fin 100000) (h : Fin 256) (c : Fin 3) : idx_main_call0_v1 (ix2 n h) c = ix3 n c h :=
  funext fun a => Fin.ext (by match a with | ⟨0, _⟩ => rfl | ⟨1, _⟩ => rfl | ⟨2, _⟩ => rfl)
theorem idx_v5 (n : Fin 100000) (h : Fin 256) (c : Fin 3) : idx_main_v5 (ix2 n h) c = ix3 n c h :=
  funext fun a => Fin.ext (by match a with | ⟨0, _⟩ => rfl | ⟨1, _⟩ => rfl | ⟨2, _⟩ => rfl)
theorem lidx_v9 (n : Fin 100000) (j : Fin 256) (k : Fin 512) : lidx_main_v9 (ix2 n j) k = ix2 n k :=
  funext fun a => Fin.ext (by match a with | ⟨0, _⟩ => rfl | ⟨1, _⟩ => rfl)
theorem ridx_v9 (n : Fin 100000) (j : Fin 256) (k : Fin 512) : ridx_main_v9 (ix2 n j) k = ix2 k j :=
  funext fun a => Fin.ext (by match a with | ⟨0, _⟩ => rfl | ⟨1, _⟩ => rfl)
theorem idx_v10_v11 (n : Fin 100000) (j : Fin 256) : idx_main_v10 (idx_main_v11 (ix2 n j)) = ix1 j :=
  funext fun a => Fin.ext (by match a with | ⟨0, _⟩ => rfl)
theorem lidx_v14 (n : Fin 100000) (q : Fin 768) (k : Fin 256) : lidx_main_v14 (ix2 n q) k = ix2 n k :=
  funext fun a => Fin.ext (by match a with | ⟨0, _⟩ => rfl | ⟨1, _⟩ => rfl)
theorem ridx_v14 (n : Fin 100000) (q : Fin 768) (k : Fin 256) : ridx_main_v14 (ix2 n q) k = ix2 k q :=
  funext fun a => Fin.ext (by match a with | ⟨0, _⟩ => rfl | ⟨1, _⟩ => rfl)
theorem idx_v15_v16 (n : Fin 100000) (q : Fin 768) : idx_main_v15 (idx_main_v16 (ix2 n q)) = ix1 q :=
  funext fun a => Fin.ext (by match a with | ⟨0, _⟩ => rfl)
theorem idx_v18 (n : Fin 100000) (h : Fin 256) : idx_main_v18 (ix2 n h) = ix2 n (third 0 h) :=
  funext fun a => Fin.ext (by
    match a with
    | ⟨0, _⟩ => rfl
    | ⟨1, _⟩ => show h.val = 0 * 256 + h.val; omega)
theorem idx_v19 (n : Fin 100000) (h : Fin 256) : idx_main_v19 (ix2 n h) = ix2 n (third 1 h) :=
  funext fun a => Fin.ext (by
    match a with
    | ⟨0, _⟩ => rfl
    | ⟨1, _⟩ => show 256 + h.val = 1 * 256 + h.val; omega)
theorem idx_v20 (n : Fin 100000) (h : Fin 256) : idx_main_v20 (ix2 n h) = ix2 n (third 2 h) :=
  funext fun a => Fin.ext (by
    match a with
    | ⟨0, _⟩ => rfl
    | ⟨1, _⟩ => show 512 + h.val = 2 * 256 + h.val; omega)
theorem idx_v25_v26 (n : Fin 100000) (c : Fin 3) (h : Fin 256) : idx_main_v25 (idx_main_v26 (ix3 n c h)) = ix2 n h :=
  funext fun a => Fin.ext (by match a with | ⟨0, _⟩ => rfl | ⟨1, _⟩ => rfl)

section Reads

variable (x0 : (⟨S100000x256, .f32⟩ : BufTy).Contents (Elt Ideal)) (x1 : (⟨S100000x3x256, .f32⟩ : BufTy).Contents (Elt Ideal))
  (x3 : (⟨S256x512, .f32⟩ : BufTy).Contents (Elt Ideal)) (x4 : (⟨S512x256, .f32⟩ : BufTy).Contents (Elt Ideal))
  (x5 : (⟨S256, .f32⟩ : BufTy).Contents (Elt Ideal)) (x6 : (⟨S256x768, .f32⟩ : BufTy).Contents (Elt Ideal))
  (x7 : (⟨S768, .f32⟩ : BufTy).Contents (Elt Ideal))

/-- The projection of component c of row n. -/
theorem v0_apply (n : Fin 100000) (c : Fin 3) (k : Fin 512) :
    val_main_v0 (F := Ideal) x1 x3 (ix3 n c k) = proj (tbl x3) (fun h => x1 (ix3 n c h)) k := by
  rw [val_main_v0_apply]
  simp only [lidx_v0, ridx_v0]
  rfl

theorem v1_apply (n : Fin 100000) (c : Fin 3) (h : Fin 256) :
    val_main_v1 (F := Ideal) x1 x3 (ix3 n c h) = proj (tbl x3) (fun k => x1 (ix3 n c k)) (lo h) := by
  rw [val_main_v1_apply, idx_v1, v0_apply]

theorem v2_apply (n : Fin 100000) (c : Fin 3) (h : Fin 256) :
    val_main_v2 (F := Ideal) x1 x3 (ix3 n c h) = proj (tbl x3) (fun k => x1 (ix3 n c k)) (hi h) := by
  rw [val_main_v2_apply, idx_v2, v0_apply]

/-- The norm over the components. -/
theorem v3_apply (n : Fin 100000) (h : Fin 256) :
    val_main_v3 (F := Ideal) x1 x3 (ix2 n h) = nrm (tbl x3) (fun c k => x1 (ix3 n c k)) h := by
  rw [val_main_v3_apply, val_main_call0_v1_apply, val_main_call0_cst_apply]
  simp only [val_main_call0_v0_apply, idx_call0_v1, v1_apply, Ideal.ofBits_def]
  rw [Ideal.ofBits_zero_f32, zero_add_sum_three]
  rfl

/-- The scaled dot product over the components. -/
theorem v7_apply (n : Fin 100000) (h : Fin 256) :
    val_main_v7 (F := Ideal) x1 x3 (ix2 n h) = vdot (tbl x3) (fun c k => x1 (ix3 n c k)) h := by
  rw [val_main_v7_apply, val_main_v5_apply, val_main_cst_apply, val_main_v6_apply, val_main_cst_0_apply]
  simp only [val_main_v4_apply, idx_v5, v1_apply, v2_apply, Ideal.ofBits_def]
  rw [Ideal.ofBits_zero_f32, zero_add_sum_three]
  rfl

/-- The joined row [x, norm] at an entry of its first half. -/
theorem cat_lo (n : Fin 100000) (k : Fin 256) : val_main_v8 (F := Ideal) x0 x1 x3 (ix2 n (lo k)) = x0 (ix2 n k) := by
  unfold val_main_v8
  refine concatenate_pair_apply_left (t := S100000x512) (s₁ := S100000x256) (s₂ := S100000x256) (1 : Fin 2) x0
    (val_main_v3 (F := Ideal) x1 x3) concatenates_S100000x256_S100000x256_S100000x512_d1
    (ix2 n (lo k)) rfl (ix2 n k) (fun b => ?_)
  match b with
  | ⟨0, _⟩ => rfl
  | ⟨1, _⟩ => rfl

/-- And of its second half. -/
theorem cat_hi (n : Fin 100000) (k : Fin 256) :
    val_main_v8 (F := Ideal) x0 x1 x3 (ix2 n (hi k)) = val_main_v3 (F := Ideal) x1 x3 (ix2 n k) := by
  unfold val_main_v8
  refine concatenate_pair_apply_right (t := S100000x512) (s₁ := S100000x256) (s₂ := S100000x256) (1 : Fin 2) x0
    (val_main_v3 (F := Ideal) x1 x3) concatenates_S100000x256_S100000x256_S100000x512_d1
    (ix2 n (hi k)) rfl rfl (ix2 n k) (fun b hb => ?_) ?_
  · match b with
    | ⟨0, _⟩ => rfl
    | ⟨1, _⟩ => exact absurd rfl hb
  · show k.val + 256 = 256 + k.val
    omega

/-- The first layer. -/
theorem v12_apply (n : Fin 100000) (j : Fin 256) :
    val_main_v12 (F := Ideal) x0 x1 x3 x4 x5 (ix2 n j)
      = pre (tbl x3) (tbl x4) (vct x5) (tbl x0 n) (fun c k => x1 (ix3 n c k)) j := by
  rw [val_main_v12_apply, val_main_v9_apply, val_main_v11_apply, val_main_v10_apply, sum_lo_hi]
  simp only [lidx_v9, ridx_v9, cat_lo, cat_hi, v3_apply, idx_v10_v11]
  rfl

/-- y ↦ y · logistic y of it. -/
theorem v13_apply (n : Fin 100000) (j : Fin 256) :
    val_main_v13 (F := Ideal) x0 x1 x3 x4 x5 (ix2 n j)
      = act (tbl x3) (tbl x4) (vct x5) (tbl x0 n) (fun c k => x1 (ix3 n c k)) j := by
  rw [val_main_v13_apply, val_main_call1_v5_apply, val_main_call1_v4_apply, val_main_call1_cst_0_apply,
    val_main_call1_v3_apply, val_main_call1_v2_apply, val_main_call1_cst_apply, val_main_call1_v1_apply,
    val_main_call1_v0_apply, v12_apply]
  simp only [Ideal.ofBits_def, Ideal.ofBits_one_f32]
  rfl

/-- The second layer. -/
theorem v17_apply (n : Fin 100000) (q : Fin 768) :
    val_main_v17 (F := Ideal) x0 x1 x3 x4 x5 x6 x7 (ix2 n q)
      = mlp (tbl x3) (tbl x4) (vct x5) (tbl x6) (vct x7) (tbl x0 n) (fun c k => x1 (ix3 n c k)) q := by
  rw [val_main_v17_apply, val_main_v14_apply, val_main_v16_apply, val_main_v15_apply]
  simp only [lidx_v14, ridx_v14, v13_apply, idx_v15_v16]
  rfl

/-- The scalar result at (n, h). -/
theorem v24_apply (n : Fin 100000) (h : Fin 256) :
    val_main_v24 (F := Ideal) x0 x1 x3 x4 x5 x6 x7 (ix2 n h)
      = dxRow (tbl x3) (tbl x4) (vct x5) (tbl x6) (vct x7) (tbl x0 n) (fun c k => x1 (ix3 n c k)) h := by
  rw [val_main_v24_apply, val_main_v23_apply, val_main_cst_1_apply, val_main_v22_apply, val_main_v21_apply,
    val_main_v18_apply, val_main_v19_apply, idx_v18, idx_v19, v17_apply, v17_apply, v7_apply]
  rfl

/-- The vector result at (n, c, h). -/
theorem v27_apply (n : Fin 100000) (c : Fin 3) (h : Fin 256) :
    val_main_v27 (F := Ideal) x0 x1 x3 x4 x5 x6 x7 (ix3 n c h)
      = dvRow (tbl x3) (tbl x4) (vct x5) (tbl x6) (vct x7) (tbl x0 n) (fun c k => x1 (ix3 n c k)) c h := by
  rw [val_main_v27_apply, val_main_v26_apply, val_main_v25_apply, val_main_v20_apply, idx_v25_v26, idx_v20,
    v17_apply, v2_apply]
  rfl

end Reads

end Cert.ReferenceIdeal.RefRow

end
-- ==== Proof.lean ====
/-
  An equivariant update of 100000 rows, each a feature vector of 256 entries and three spatial components of 256
  entries: the kernel, which works on blocks of 1000 rows with the components flattened into rows of 768 entries,
  against the reference on the whole arrays.

  On the extended reals both compute, row by row, the same two outputs (Proof/EquiSpec.lean): each component
  projected by one table, a norm and a scaled dot product over the three components, a two-layer network on the row
  [x, norm] with y ↦ y · logistic y between the layers, its output's first two thirds added to the dot product and
  scaled, its last third multiplying the second halves of the projections. The two programs differ in arrangement only:
  the kernel splits the first layer's 512-term sum into the terms that read x and those that read the norm, where the
  reference joins [x, norm] and sums once; it writes the sums over the three components as nested additions, where the
  reference reduces from zero; it names the logistic function, where the reference spells it out; it flattens the
  components before the call and re-lays the vector output after it. None of these needs an entry to be finite, so the
  precondition is never opened.

  The kernel's side: the body's arithmetic at one entry of a block (Proof/KernelRow.lean), its two output buffers as
  batch functions of the input blocks (Proof/KernelBlock.lean), each point's write-back as a block of the batch function
  of the whole arrays, the cover of the arrays by the 100 blocks and the host's two re-layings (Proof/KernelArray.lean,
  Proof/EquiFlat.lean). The reference's side: its operations read at an index, one row at a time (Proof/RefRow.lean).
-/
import proofs.«148537_j42949673220_2_alg».proof.Defs
import proofs.«148537_j42949673220_2_alg».proof.Proof.Gen.Kernel
import proofs.«148537_j42949673220_2_alg».proof.Proof.Gen.Kernel.Skeleton
import proofs.«148537_j42949673220_2_alg».proof.Proof.Gen.Kernel.Launch
import proofs.«148537_j42949673220_2_alg».proof.Proof.Gen.Kernel.Points
import proofs.«148537_j42949673220_2_alg».proof.Proof.Gen.Kernel.Frame
import proofs.«148537_j42949673220_2_alg».proof.Proof.Gen.KernelIdeal
import proofs.«148537_j42949673220_2_alg».proof.Proof.Gen.KernelIdeal.Skeleton
import proofs.«148537_j42949673220_2_alg».proof.Proof.Gen.KernelIdeal.Launch
import proofs.«148537_j42949673220_2_alg».proof.Proof.Gen.KernelIdeal.Points
import proofs.«148537_j42949673220_2_alg».proof.Proof.Gen.KernelIdeal.Frame
import proofs.«148537_j42949673220_2_alg».proof.Proof.Gen.ReferenceIdeal
import proofs.«148537_j42949673220_2_alg».proof.Proof.Gen.ReferenceIdeal.Run
import proofs.«148537_j42949673220_2_alg».proof.Proof.Gen.ReferenceIdeal.Read
import proofs.«148537_j42949673220_2_alg».proof.Proof.Gen.Pre_finite_inputs
import proofs.«148537_j42949673220_2_alg».proof.Proof.KernelArray
import proofs.«148537_j42949673220_2_alg».proof.Proof.RefRow
import Idealize.ShloMosaic.Adequacy
import Idealize.ShloMosaic.Init

noncomputable section

namespace Cert.Proof

open Idealize.ShloMosaic Idealize.SL.Sem Idealize.ShloMosaic.ValueIdx

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's scalar result is the scalar outputs of the rows. -/
theorem ref_dx (x0 : (⟨Cert.ReferenceIdeal.S100000x256, .f32⟩ : BufTy).Contents (Elt Ideal))
    (x1 : (⟨Cert.ReferenceIdeal.S100000x3x256, .f32⟩ : BufTy).Contents (Elt Ideal))
    (x3 : (⟨Cert.ReferenceIdeal.S256x512, .f32⟩ : BufTy).Contents (Elt Ideal))
    (x4 : (⟨Cert.ReferenceIdeal.S512x256, .f32⟩ : BufTy).Contents (Elt Ideal))
    (x5 : (⟨Cert.ReferenceIdeal.S256, .f32⟩ : BufTy).Contents (Elt Ideal))
    (x6 : (⟨Cert.ReferenceIdeal.S256x768, .f32⟩ : BufTy).Contents (Elt Ideal))
    (x7 : (⟨Cert.ReferenceIdeal.S768, .f32⟩ : BufTy).Contents (Elt Ideal)) :
    Cert.ReferenceIdeal.Read.val_main_v24 (F := Ideal) x0 x1 x3 x4 x5 x6 x7
      = Cert.Equi.dxOut (R := 100000) x0 x1 x3 x4 x5 x6 x7 := by
  funext i
  obtain ⟨n, h, rfl⟩ : ∃ (n : Fin 100000) (h : Fin 256), i = ix2 n h := ⟨i 0, i 1, eq_ix2 i⟩
  exact Cert.ReferenceIdeal.RefRow.v24_apply x0 x1 x3 x4 x5 x6 x7 n h

/-- The reference's vector result is the vector outputs of the rows. -/
theorem ref_dv (x0 : (⟨Cert.ReferenceIdeal.S100000x256, .f32⟩ : BufTy).Contents (Elt Ideal))
    (x1 : (⟨Cert.ReferenceIdeal.S100000x3x256, .f32⟩ : BufTy).Contents (Elt Ideal))
    (x3 : (⟨Cert.ReferenceIdeal.S256x512, .f32⟩ : BufTy).Contents (Elt Ideal))
    (x4 : (⟨Cert.ReferenceIdeal.S512x256, .f32⟩ : BufTy).Contents (Elt Ideal))
    (x5 : (⟨Cert.ReferenceIdeal.S256, .f32⟩ : BufTy).Contents (Elt Ideal))
    (x6 : (⟨Cert.ReferenceIdeal.S256x768, .f32⟩ : BufTy).Contents (Elt Ideal))
    (x7 : (⟨Cert.ReferenceIdeal.S768, .f32⟩ : BufTy).Contents (Elt Ideal)) :
    Cert.ReferenceIdeal.Read.val_main_v27 (F := Ideal) x0 x1 x3 x4 x5 x6 x7
      = Cert.Equi.dvOut (R := 100000) x0 x1 x3 x4 x5 x6 x7 := by
  funext i
  obtain ⟨n, c, h, rfl⟩ : ∃ (n : Fin 100000) (c : Fin 3) (h : Fin 256), i = ix3 n c h := ⟨i 0, i 1, i 2, eq_ix3 i⟩
  exact Cert.ReferenceIdeal.RefRow.v27_apply x0 x1 x3 x4 x5 x6 x7 n c h

/-- From arguments that agree, both programs end with the scalar outputs and the vector outputs of the rows. -/
theorem algebraic : Cert.algebraic_KernelIdeal_ReferenceIdeal := by
  intro m ρ m' ρ' _ hagree
  refine ⟨fun c => Cert.KernelIdeal.Arr.resDx m c, fun c => Cert.KernelIdeal.Arr.resDv m c,
    Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v24_eq, a0, a1, a3, a4, a5, a6, a7]
    exact ref_dx _ _ _ _ _ _ _
  · obtain ⟨a0, a1, a2, a3, a4, a5, a6, a7⟩ := hagree c
    rw [Cert.ReferenceIdeal.Read.val_main_v27_eq, a0, a1, a3, a4, a5, a6, a7]
    exact ref_dv _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
